-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S4000000 : Shape := ⟨1, ![4000000]⟩
abbrev S4000000x3 : Shape := ⟨2, ![4000000, 3]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel

variable [Facts]

def fn {F : FTy → Type} [FloatOps F] (main_arg0 : FVec F S4000000x7 .f32) (main_arg1 : IVec S4000000 32) (main_arg2 : IVec S4000000x3 32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  main_v3
-- ==== Kernel.lean ====
abbrev S4000000x7 : Shape := ⟨2, ![4000000, 7]⟩
abbrev S4000000 : Shape := ⟨1, ![4000000]⟩
abbrev S4000000x3 : Shape := ⟨2, ![4000000, 3]⟩
abbrev S4000000x1 : Shape := ⟨2, ![4000000, 1]⟩
abbrev S1x1 : Shape := ⟨2, ![1, 1]⟩
abbrev S3200x7 : Shape := ⟨2, ![3200, 7]⟩
abbrev S3200x1 : Shape := ⟨2, ![3200, 1]⟩
abbrev S3200x3 : Shape := ⟨2, ![3200, 3]⟩
abbrev S3200 : Shape := ⟨1, ![3200]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S4000000x7, .f32⟩
  | .hbm, ⟨1, _⟩ => ⟨S4000000, .i32⟩
  | .hbm, ⟨2, _⟩ => ⟨S4000000x3, .i32⟩
  | .hbm, ⟨3, _⟩ => ⟨S4000000x1, .i32⟩
  | .hbm, ⟨4, _⟩ => ⟨S1x1, .f32⟩
  | .hbm, ⟨5, _⟩ => ⟨S_, .f32⟩
  | .local _ .vmem, ⟨0, _⟩ => ⟨S3200x7, .f32⟩
  | .local _ .vmem, ⟨1, _⟩ => ⟨S3200x7, .f32⟩
  | .local _ .vmem, ⟨2, _⟩ => ⟨S3200x1, .i32⟩
  | .local _ .vmem, ⟨3, _⟩ => ⟨S3200x1, .i32⟩
  | .local _ .vmem, ⟨4, _⟩ => ⟨S3200x3, .i32⟩
  | .local _ .vmem, ⟨5, _⟩ => ⟨S3200x3, .i32⟩
  | .local _ .vmem, ⟨6, _⟩ => ⟨S1x1, .f32⟩
  | .local _ .vmem, ⟨7, _⟩ => ⟨S1x1, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![1250], ![false]⟩

def k0_cond2 (i : grid0.Coords) : BitVec 1 :=
  let arg0 : BitVec 32 := BitVec.ofNat 32 (i 0).val
  let c1249_i32 : BitVec 32 := 1249#32
  let v39 : BitVec 1 := Scalar.cmpi .eq arg0 c1249_i32
  let v40 : BitVec 32 := Scalar.extui v39
  let c0_i32_14 : BitVec 32 := 0#32
  let v41 : BitVec 1 := Scalar.cmpi .ne v40 c0_i32_14
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S4000000_S4000000x1 : S4000000.ShapeCasts S4000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3200x7_S3200x7_0_0 : ∀ a, (![0, 0] : Fin 2 → Nat) a + S3200x7.size a ≤ S3200x7.size a
  h_S3200x7 : 0 < S3200x7.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S3200x3_S3200x3_0_0 : ∀ a, (![0, 0] : Fin 2 → Nat) a + S3200x3.size a ≤ S3200x3.size a
  h_S3200x3 : 0 < S3200x3.numel
  iota_S3200x7_d1_w32 : S3200x7.Iotas .tc 32 [1]
  slices_S3200x3_o0_0_S3200x1 : S3200x3.Slices ![0, 0] S3200x1
  broadcasts_S3200x1_S3200x7 : S3200x1.Broadcasts S3200x7
  slices_S3200x3_o0_1_S3200x1 : S3200x3.Slices ![0, 1] S3200x1
  slices_S3200x3_o0_2_S3200x1 : S3200x3.Slices ![0, 2] S3200x1
  reduces_S3200x7_S3200 : S3200x7.Reduces [1] S3200
  shapeCasts_S3200_S3200x1 : S3200.ShapeCasts S3200x1
  reduces_S3200x1_S1 : S3200x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x7.size a ≤ S4000000x7.size a
  hwx0_0 : ∀ i : grid0.Coords, EltTy.bits .f32 = 32 ∨ (Rect.block (s := S4000000x7) S3200x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1.size a ≤ S4000000x1.size a
  hwx0_1 : ∀ i : grid0.Coords, EltTy.bits .i32 = 32 ∨ (Rect.block (s := S4000000x1) S3200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S4000000x3.size a
  hwx0_2 : ∀ i : grid0.Coords, EltTy.bits .i32 = 32 ∨ (Rect.block (s := S4000000x3) S3200x3.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S3200x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4000000x7 : Shape := ⟨2, ![4000000, 7]⟩
abbrev S4000000 : Shape := ⟨1, ![4000000]⟩
abbrev S4000000x3 : Shape := ⟨2, ![4000000, 3]⟩
abbrev S4000000x3x1 : Shape := ⟨3, ![4000000, 3, 1]⟩
abbrev S7 : Shape := ⟨1, ![7]⟩
abbrev S1x1x7 : Shape := ⟨3, ![1, 1, 7]⟩
abbrev S4000000x3x7 : Shape := ⟨3, ![4000000, 3, 7]⟩
abbrev S_ : Shape := ⟨0, ![]⟩
abbrev S4000000x1 : Shape := ⟨2, ![4000000, 1]⟩

abbrev nBuf : Space → Nat
  | .hbm => 29
  | .vmem => 0
  | .smem => 0
  | _ => 0

abbrev bufTy : (tb : Table) → Fin (tcTables nBuf tb) → BufTy
  | .hbm, ⟨0, _⟩ => ⟨S4000000x7, .f32⟩
  | .hbm, ⟨1, _⟩ => ⟨S4000000, .i32⟩
  | .hbm, ⟨2, _⟩ => ⟨S4000000x3, .i32⟩
  | .hbm, ⟨3, _⟩ => ⟨S4000000x3x1, .i32⟩
  | .hbm, ⟨4, _⟩ => ⟨S7, .i32⟩
  | .hbm, ⟨5, _⟩ => ⟨S1x1x7, .i32⟩
  | .hbm, ⟨6, _⟩ => ⟨S4000000x3x7, .i32⟩
  | .hbm, ⟨7, _⟩ => ⟨S4000000x3x7, .i32⟩
  | .hbm, ⟨8, _⟩ => ⟨S4000000x3x7, .i1⟩
  | .hbm, ⟨9, _⟩ => ⟨S_, .i1⟩
  | .hbm, ⟨10, _⟩ => ⟨S4000000x7, .i1⟩
  | .hbm, ⟨11, _⟩ => ⟨S_, .i32⟩
  | .hbm, ⟨12, _⟩ => ⟨S4000000, .i32⟩
  | .hbm, ⟨13, _⟩ => ⟨S4000000, .i1⟩
  | .hbm, ⟨14, _⟩ => ⟨S_, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000x1, .f32⟩
  | .hbm, ⟨20, _⟩ => ⟨S4000000x7, .f32⟩
  | .hbm, ⟨21, _⟩ => ⟨S4000000x7, .f32⟩
  | .hbm, ⟨22, _⟩ => ⟨S4000000x7, .f32⟩
  | .hbm, ⟨23, _⟩ => ⟨S_, .f32⟩
  | .hbm, ⟨24, _⟩ => ⟨S4000000x7, .f32⟩
  | .hbm, ⟨25, _⟩ => ⟨S4000000x7, .f32⟩
  | .hbm, ⟨26, _⟩ => ⟨S4000000x7, .f32⟩
  | .hbm, ⟨27, _⟩ => ⟨S_, .f32⟩
  | .hbm, ⟨28, _⟩ => ⟨S_, .f32⟩
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S4000000x3_S4000000x3x1_0_1 : S4000000x3.BroadcastsInDim S4000000x3x1 (![0, 1] : Fin 2 → Fin S4000000x3x1.rank)
  bcast_S7_S1x1x7_2 : S7.BroadcastsInDim S1x1x7 (![2] : Fin 1 → Fin S1x1x7.rank)
  bcast_S4000000x3x1_S4000000x3x7_0_1_2 : S4000000x3x1.BroadcastsInDim S4000000x3x7 (![0, 1, 2] : Fin 3 → Fin S4000000x3x7.rank)
  bcast_S1x1x7_S4000000x3x7_0_1_2 : S1x1x7.BroadcastsInDim S4000000x3x7 (![0, 1, 2] : Fin 3 → Fin S4000000x3x7.rank)
  reducesTo_S4000000x3x7_S4000000x7_d1 : S4000000x3x7.ReducesTo [1] S4000000x7
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x7_0_1 : S4000000x1.BroadcastsInDim S4000000x7 (![0, 1] : Fin 2 → Fin S4000000x7.rank)
  bcast_S_S4000000x7 : S_.BroadcastsInDim S4000000x7 (![] : Fin 0 → Fin S4000000x7.rank)
  reducesTo_S4000000x7_S_d0_1 : S4000000x7.ReducesTo [0, 1] S_

variable [Facts₀]

class Facts : Prop extends Facts₀ where

variable [Facts]
-- ==== Proof.Pieces.lean ====
/-
  What each case of the body leaves behind.

  The body keeps a one-element accumulator in a scratch buffer that lives across grid points. At the first point it
  stores zero there, reads it back, and stores the read-back value plus the block's total; at every later point it
  stores what the point before left plus the block's total. At the last point it also copies the accumulator, read
  back after that store, to the one-element output. The run of each case found these stores as pieces covering the
  one-element buffers; read back, each piece is the stored value, and a load of a whole buffer reads its contents:

    first point   accumulator = (stored value) of the block at the zero block,
    later points  accumulator = (stored value) of the block at what the point before left,
    last point    output      = the same value as the accumulator.
-/
import proofs.«168878_j41755672052619_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The whole-buffer rectangle starts at the origin. -/
theorem hz : (![0, 0] : Fin 2 → Nat) = fun _ => 0 := funext fun a => by fin_cases a <;> rfl

/-- A point that is neither first nor last: the accumulator ends at the stored value over what the point before left. -/
theorem scratch_middle (c : Dev nD) (i : grid0.Coords) (arg1 : Memref sig .tc .vmem S3200x7 .f32) (harg1 : arg1.IsWhole) (arg2 : Memref sig .tc .vmem S3200x1 .i32) (harg2 : arg2.IsWhole) (arg3 : Memref sig .tc .vmem S3200x3 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S3200x7 .f32) (x1 : Vec F S3200x1 .i32) (x2 : Vec F S3200x3 .i32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread,
    View.ld_unit_zero (S := S3200x7) hz, View.ld_unit_zero (S := S3200x1) hz, View.ld_unit_zero (S := S3200x3) hz,
    View.ld_unit_zero (S := S1x1) hz]

/-- The last point: the accumulator likewise. -/
theorem scratch_last (c : Dev nD) (i : grid0.Coords) (arg1 : Memref sig .tc .vmem S3200x7 .f32) (harg1 : arg1.IsWhole) (arg2 : Memref sig .tc .vmem S3200x1 .i32) (harg2 : arg2.IsWhole) (arg3 : Memref sig .tc .vmem S3200x3 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S3200x7 .f32) (x1 : Vec F S3200x1 .i32) (x2 : Vec F S3200x3 .i32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S3200x7) hz, View.ld_unit_zero (S := S3200x1) hz, View.ld_unit_zero (S := S3200x3) hz,
    View.ld_unit_zero (S := S1x1) hz]

/-- The last point copies the accumulator, read back after its store, to the output. -/
theorem output_last (c : Dev nD) (i : grid0.Coords) (arg1 : Memref sig .tc .vmem S3200x7 .f32) (harg1 : arg1.IsWhole) (arg2 : Memref sig .tc .vmem S3200x1 .i32) (harg2 : arg2.IsWhole) (arg3 : Memref sig .tc .vmem S3200x3 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S3200x7 .f32) (x1 : Vec F S3200x1 .i32) (x2 : Vec F S3200x3 .i32) (xs0 : Vec F S1x1 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero _ hz]
  simp only [View.readAt_eq_ld, harg1.read_unread, harg2.read_unread, harg3.read_unread, harg5.read_unread,
    View.ld_unit_zero (S := S3200x7) hz, View.ld_unit_zero (S := S3200x1) hz, View.ld_unit_zero (S := S3200x3) hz,
    View.ld_unit_zero (S := S1x1) hz]

/-- The first point: zero is stored, read back, and the accumulator ends at the stored value over the zero block. -/
theorem scratch_first (c : Dev nD) (i : grid0.Coords) (arg1 : Memref sig .tc .vmem S3200x7 .f32) (harg1 : arg1.IsWhole) (arg2 : Memref sig .tc .vmem S3200x1 .i32) (harg2 : arg2.IsWhole) (arg3 : Memref sig .tc .vmem S3200x3 .i32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S3200x7 .f32) (x1 : Vec F S3200x1 .i32) (x2 : Vec F S3200x3 .i32) :
    sout0_A_0 c i arg1 harg1 arg2 harg2 arg3 harg3 arg4 harg4 arg5 harg5 hc0 hc1 x0 x1 x2 = k0_pay2 x0 x1 x2 k0_pay1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S3200x7) hz, View.ld_unit_zero (S := S3200x1) hz, View.ld_unit_zero (S := S3200x3) hz,
    View.ld_unit_zero (S := S1x1) hz]

end Cert.KernelIdeal.Pieces

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.HingeTerm.lean ====
/-
  One term of the loss, and the loss.

  A row of the batch has seven logits x(R, 0..6), a label, and three listed class numbers. The row's margin is 1 when its
  label is 1 and 0 otherwise. For lane j put d = x(R, j) - margin. When j is one of the row's three listed class numbers
  the term is |d|; otherwise it is max(d, 0). The loss is the sum of the terms over all 4 000 000 rows and 7 lanes.

  Both programs compute this sum, one in a single reduction over the whole array and one block of 3200 rows at a time;
  the two arrangements are one sum because addition of extended reals is commutative and associative (no finiteness is
  needed: nothing is cancelled and nothing is distributed).
-/
import Idealize.ShloMosaic.PureOps.Ideal
import Idealize.ShloMosaic.Lib.ValueIdx
import proofs.«168878_j41755672052619_1_alg».proof.Proof.LibBlockSumGen

noncomputable section

namespace Cert.Hinge

open Idealize.ShloMosaic Idealize.ShloMosaic.ValueIdx
open scoped BigOperators

variable {F : FTy → Type} [FloatOps F]

/-- Lane number `j` is one of the three class numbers `a`, `b`, `c` listed for the row (as a one-bit word). -/
def listed (a b c j : BitVec 32) : BitVec 1 :=
  IntOp.ori (IntOp.ori (IntOp.cmpi .eq a j) (IntOp.cmpi .eq b j)) (IntOp.cmpi .eq c j)

/-- The row's margin: 1 when its label is 1, else 0. -/
def margin (lab : BitVec 32) : F .f32 :=
  Scalar.select (IntOp.cmpi .eq lab 1#32) (FloatOps.ofBits .f32 0x3F800000#32) (FloatOps.ofBits .f32 0x00000000#32)

/-- One term: with d = x - margin, |d| on a listed lane and max(d, 0) on the others. -/
def term (x : F .f32) (lab a b c j : BitVec 32) : F .f32 :=
  Scalar.select (listed a b c j) (FloatOps.absf (FloatOps.subf x (margin lab)))
    (FloatOps.maximumf (FloatOps.subf x (margin lab)) (FloatOps.ofBits .f32 0x00000000#32))

/-- The logits, the labels and the listed class numbers of the whole batch. -/
abbrev Logits := (⟨2, ![4000000, 7]⟩ : Shape).Idx → Ideal .f32
abbrev Labels := (⟨1, ![4000000]⟩ : Shape).Idx → BitVec 32
abbrev Listed := (⟨2, ![4000000, 3]⟩ : Shape).Idx → BitVec 32

/-- The term of row `R`, lane `j`, at the ideal values. -/
def termAt (X : Logits) (Lab : Labels) (Rep : Listed) (R : Fin 4000000) (j : Fin 7) : EReal :=
  term (F := Ideal) (X (ix2 R j)) (Lab (ix1 R)) (Rep (ix2 R 0)) (Rep (ix2 R 1)) (Rep (ix2 R 2)) (BitVec.ofNat 32 j.val)

/-- The loss: the sum of all the terms. -/
def loss (X : Logits) (Lab : Labels) (Rep : Listed) : EReal :=
  ∑ R : Fin 4000000, ∑ j : Fin 7, termAt X Lab Rep R j

/-- Row `r` of block `t` (blocks of 3200 rows) is row 3200 t + r of the batch. -/
def rowOf (t : Fin 1250) (r : Fin 3200) : Fin 4000000 :=
  ⟨3200 * t.val + r.val, Cert.LibBlockSumGen.block_index_lt (K := 1250) (B := 3200) t r⟩

/-- The sum of the terms of block `t`. -/
def blockLoss (X : Logits) (Lab : Labels) (Rep : Listed) (t : Fin 1250) : EReal :=
  ∑ r : Fin 3200, ∑ j : Fin 7, termAt X Lab Rep (rowOf t r) j

/-- The loss is the sum of the 1250 block sums. -/
theorem loss_eq_sum_blocks (X : Logits) (Lab : Labels) (Rep : Listed) :
    loss X Lab Rep = ∑ t : Fin 1250, blockLoss X Lab Rep t :=
  Cert.LibBlockSumGen.sum_blocks (n := 4000000) (K := 1250) (B := 3200) rfl
    (fun R : Fin 4000000 => ∑ j : Fin 7, termAt X Lab Rep R j)

end Cert.Hinge

end
-- ==== Proof.BlockTotal.lean ====
/-
  What one grid point adds to the accumulator.

  The body at a grid point holds a block of 3200 rows: their logits x0 [3200, 7], labels x1 [3200, 1] and listed class
  numbers x2 [3200, 3]. It forms the block's array of terms — the listed numbers' three columns and the margin column
  are each spread over the seven lanes and compared, subtracted and selected lane by lane —, sums each row over its
  lanes, sums the 3200 row sums, and adds the total to what the one-element accumulator held. Read at the ideal
  values, the accumulator's new value is its old value plus the sum over the block's rows and lanes of the loss's term.
-/
import proofs.«168878_j41755672052619_1_alg».proof.Proof.Gen.KernelIdeal.Skeleton
import proofs.«168878_j41755672052619_1_alg».proof.Proof.LibColumns
import proofs.«168878_j41755672052619_1_alg».proof.Proof.HingeTerm
import Idealize.ShloMosaic.Lib.Pipeline.Value
import Idealize.ShloMosaic.Lib.ValueIdx
import Idealize.ShloMosaic.PureOps.Ideal.Laws

noncomputable section

namespace Cert.KernelIdeal.BlockTotal

open Cert.KernelIdeal Cert.KernelIdeal.Gen Idealize.ShloMosaic Idealize.ShloMosaic.ValueIdx Cert.Hinge Cert.Columns
open scoped BigOperators

variable {F : FTy → Type} [FloatOps F] {α : Type}

/-! ## The spread columns at an index -/

/-- Column s of a [3200, 3] block, spread over the seven lanes, reads at (r, j) the block at (r, s). -/
theorem spread_slot_apply (x2 : S3200x3.Idx → α) (s : Fin 3) (off : Fin 2 → Nat) (hoff : off = ![0, s.val])
    (hs : S3200x3.Slices off S3200x1) (hb : S3200x1.Broadcasts S3200x7) (r : Fin 3200) (j : Fin 7) :
    broadcastTo S3200x7 (extractStridedSlice S3200x1 off x2 hs) hb (ix2 r j) = x2 (ix2 r s) := by
  subst hoff
  refine (broadcastTo_a1_ab_apply _ hb r j (0 : Fin 1)).trans ?_
  exact extractStridedSlice_apply _ x2 hs (ix2 r (0 : Fin 1)) (ix2 r s) (fun a => match a with
    | ⟨0, _⟩ => by show r.val = 0 + r.val; omega
    | ⟨1, _⟩ => by show s.val = s.val + 0; omega)

/-- The lane numbers of a [3200, 7] block: at (r, j) the number j. -/
theorem lane_number_apply (h : S3200x7.Iotas .tc 32 [1]) (r : Fin 3200) (j : Fin 7) :
    iota .tc S3200x7 32 [1] h (ix2 r j) = BitVec.ofNat 32 j.val := by
  show BitVec.ofNat 32 (0 * 7 + j.val) = _
  rw [Nat.zero_mul, Nat.zero_add]

/-- The block's margin column (1 where the label is 1, else 0), spread over the seven lanes, reads at (r, j) the
    margin of row r. -/
theorem spread_margin_apply (x1 : S3200x1.Idx → BitVec 32) (hc : S3200x1.ShapeCasts S3200x1) (hb : S3200x1.Broadcasts S3200x7)
    (r : Fin 3200) (j : Fin 7) :
    broadcastTo S3200x7
        (select (cmpi .eq (shapeCast S3200x1 x1 hc) (broadcast S3200x1 1#32))
          (broadcast S3200x1 (Scalar.ofBits (F := F) .f32 0x3F800000#32))
          (broadcast S3200x1 (Scalar.ofBits (F := F) .f32 0x00000000#32))) hb (ix2 r j)
      = margin (F := F) (x1 (ix2 r (0 : Fin 1))) := by
  refine (broadcastTo_a1_ab_apply _ hb r j (0 : Fin 1)).trans ?_
  rw [shapeCast_self]
  rfl

/-! ## The block's array of terms -/

/-- The block's array of terms, as the body forms it. -/
def blockTerms (x0 : Vec F S3200x7 .f32) (x1 : Vec F S3200x1 .i32) (x2 : Vec F S3200x3 .i32) : FVec F S3200x7 .f32 :=
  select
    (ori (ori (cmpi .eq (broadcastTo S3200x7 (extractStridedSlice S3200x1 ![0, 0] x2 slices_S3200x3_o0_0_S3200x1) broadcasts_S3200x1_S3200x7)
                (iota .tc S3200x7 32 [1] iota_S3200x7_d1_w32))
              (cmpi .eq (broadcastTo S3200x7 (extractStridedSlice S3200x1 ![0, 1] x2 slices_S3200x3_o0_1_S3200x1) broadcasts_S3200x1_S3200x7)
                (iota .tc S3200x7 32 [1] iota_S3200x7_d1_w32)))
         (cmpi .eq (broadcastTo S3200x7 (extractStridedSlice S3200x1 ![0, 2] x2 slices_S3200x3_o0_2_S3200x1) broadcasts_S3200x1_S3200x7)
            (iota .tc S3200x7 32 [1] iota_S3200x7_d1_w32)))
    (absf (subf x0 (broadcastTo S3200x7
      (select (cmpi .eq (shapeCast S3200x1 x1 shapeCasts_S3200x1_S3200x1) (broadcast S3200x1 1#32))
        (broadcast S3200x1 (Scalar.ofBits (F := F) .f32 0x3F800000#32))
        (broadcast S3200x1 (Scalar.ofBits (F := F) .f32 0x00000000#32))) broadcasts_S3200x1_S3200x7)))
    (maximumf (subf x0 (broadcastTo S3200x7
      (select (cmpi .eq (shapeCast S3200x1 x1 shapeCasts_S3200x1_S3200x1) (broadcast S3200x1 1#32))
        (broadcast S3200x1 (Scalar.ofBits (F := F) .f32 0x3F800000#32))
        (broadcast S3200x1 (Scalar.ofBits (F := F) .f32 0x00000000#32))) broadcasts_S3200x1_S3200x7))
      (broadcast S3200x7 (Scalar.ofBits (F := F) .f32 0x00000000#32)))

/-- At (r, j) it is the loss's term of the block's row r and lane j. -/
theorem blockTerms_apply (x0 : Vec F S3200x7 .f32) (x1 : Vec F S3200x1 .i32) (x2 : Vec F S3200x3 .i32) (r : Fin 3200) (j : Fin 7) :
    blockTerms x0 x1 x2 (ix2 r j)
      = term (x0 (ix2 r j)) (x1 (ix2 r (0 : Fin 1))) (x2 (ix2 r 0)) (x2 (ix2 r 1)) (x2 (ix2 r 2)) (BitVec.ofNat 32 j.val) := by
  unfold blockTerms term listed
  simp only [select, ori, cmpi, subf, absf, maximumf]
  rw [spread_slot_apply x2 0 ![0, 0] rfl, spread_slot_apply x2 1 ![0, 1] rfl, spread_slot_apply x2 2 ![0, 2] rfl, lane_number_apply,
    spread_margin_apply]
  rfl

/-! ## The accumulator's new value -/

/-- The body's stored value is the old accumulator plus the lane-then-row sum of the block's terms. -/
theorem pay2_eq (x0 : Vec F S3200x7 .f32) (x1 : Vec F S3200x1 .i32) (x2 : Vec F S3200x3 .i32) (xs : Vec F S1x1 .f32) :
    k0_pay2 x0 x1 x2 xs
      = shapeCast S1x1 (addf xs (shapeCast S1x1
          (multiReduction .add [0] S1
            (shapeCast S3200x1 (multiReduction .add [1] S3200 (blockTerms x0 x1 x2) 0x00000000#32 reduces_S3200x7_S3200 (.inl rfl) rfl)
              shapeCasts_S3200_S3200x1)
            0x00000000#32 reduces_S3200x1_S1 (.inl rfl) rfl) shapeCasts_S1_S1x1)) shapeCasts_S1x1_S1x1 := rfl

/-- At the ideal values: the old value plus the sum, over the block's 3200 rows and 7 lanes, of the loss's term. -/
theorem pay2_apply (x0 : Vec Ideal S3200x7 .f32) (x1 : Vec Ideal S3200x1 .i32) (x2 : Vec Ideal S3200x3 .i32)
    (xs : Vec Ideal S1x1 .f32) (y : S1x1.Idx) :
    k0_pay2 (F := Ideal) x0 x1 x2 xs y
      = xs y + ∑ r : Fin 3200, ∑ j : Fin 7,
          term (F := Ideal) (x0 (ix2 r j)) (x1 (ix2 r (0 : Fin 1))) (x2 (ix2 r 0)) (x2 (ix2 r 1)) (x2 (ix2 r 2)) (BitVec.ofNat 32 j.val) := by
  have hy : y = ix2 (0 : Fin 1) (0 : Fin 1) := funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
  rw [pay2_eq]
  refine (congrFun (shapeCast_self _ shapeCasts_S1x1_S1x1) y).trans ?_
  show xs y + shapeCast S1x1 _ shapeCasts_S1_S1x1 y = _
  congr 1
  rw [hy]
  refine (shapeCast_a_a1_apply _ shapeCasts_S1_S1x1 (0 : Fin 1) (0 : Fin 1)).trans ?_
  refine (Ideal.multiReduction_add_single _ 0x00000000#32 reduces_S3200x1_S1 (.inl rfl) rfl (ix1 (0 : Fin 1))).trans ?_
  refine Finset.sum_congr rfl fun r _ => ?_
  have hl : reduces_S3200x1_S1.lift (ix1 (0 : Fin 1)) r = ix2 r (0 : Fin 1) := funext fun a => match a with
    | ⟨0, _⟩ => Fin.ext rfl
    | ⟨1, _⟩ => Fin.ext rfl
  rw [hl]
  refine (shapeCast_a_a1_apply _ shapeCasts_S3200_S3200x1 r (0 : Fin 1)).trans ?_
  refine (laneSum_apply _ 0x00000000#32 reduces_S3200x7_S3200 (.inl rfl) rfl r).trans ?_
  exact Finset.sum_congr rfl fun j _ => blockTerms_apply x0 x1 x2 r j

/-- The zero block the first grid point stores reads zero. -/
theorem pay1_apply (y : S1x1.Idx) : k0_pay1 (F := Ideal) y = 0 := by
  unfold k0_pay1
  refine (congrFun (shapeCast_self _ shapeCasts_S1x1_S1x1) y).trans ?_
  exact Ideal.ofBits_zero_f32

end Cert.KernelIdeal.BlockTotal

end
-- ==== Proof.Blocks.lean ====
/-
  The blocks the kernel's windows hold, read off the argument arrays.

  At grid point t the three input windows hold rows 3200 t, …, 3200 t + 3199 of the batch: the logits' block is
  [3200, 7], the labels' block the column [3200, 1], the listed numbers' block [3200, 3]. Row r of the block is row
  3200 t + r of the batch (a block's coordinate is its index times its size plus the coordinate inside it, and the
  windows' row index at point t is t, their column index 0). The labels reach the kernel as a column: the host
  reshapes the [4000000] vector to [4000000, 1] before the call, so the column at (R, 0) is the vector at R.

  So, at the ideal values, what grid point t adds to the accumulator is the loss's block sum number t.
-/
import proofs.«168878_j41755672052619_1_alg».proof.Proof.Gen.KernelIdeal.Frame
import proofs.«168878_j41755672052619_1_alg».proof.Proof.BlockTotal
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Hinge
open scoped BigOperators

variable {F : FTy → Type} [FloatOps F]
variable (m : (ℓ : Loc nD τ sig) → Buf (Elt F) ℓ)

/-- A grid point as a block number: there are 1250 of each. -/
def blockNo (t : Fin cfg0.N) : Fin 1250 := ⟨t.val, lt_of_lt_of_eq t.isLt (show cfg0.N = 1250 from N_0)⟩

/-- At every grid point each input window's row index is the point's number and its column index 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The logits' block at point t, row r, lane j, is the logits at row 3200 t + r, lane j. -/
theorem logits_block (c : Dev nD) (t : Fin cfg0.N) (r : Fin 3200) (j : Fin 7) :
    (iblk m c 0 t : Vec F S3200x7 .f32) (ix2 r j)
      = m ((c.tc : Thread nD τ).loc main_arg0) (ix2 (rowOf (blockNo t) r) j) := by
  unfold iblk
  rw [View.read_apply]
  show V m c main_arg0 (((cfg0.win 0).blk t).view.emb (ix2 r j)) = _
  rw [V_main_arg0]
  refine congrArg (m ((c.tc : Thread nD τ).loc main_arg0)) (funext fun a => Fin.ext ?_)
  match a with
  | ⟨0, _⟩ => show win0_0.index t 0 * 3200 + 1 * r.val = 3200 * t.val + r.val; rw [(index_facts t).1]; omega
  | ⟨1, _⟩ => show win0_0.index t 1 * 7 + 1 * j.val = j.val; rw [(index_facts t).2.1]; omega

/-- The listed numbers' block at point t, row r, slot k, is the listed numbers at row 3200 t + r, slot k. -/
theorem listed_block (c : Dev nD) (t : Fin cfg0.N) (r : Fin 3200) (k : Fin 3) :
    (iblk m c 2 t : Vec F S3200x3 .i32) (ix2 r k)
      = m ((c.tc : Thread nD τ).loc main_arg2) (ix2 (rowOf (blockNo t) r) k) := by
  unfold iblk
  rw [View.read_apply]
  show V m c main_arg2 (((cfg0.win 2).blk t).view.emb (ix2 r k)) = _
  rw [V_main_arg2]
  refine congrArg (m ((c.tc : Thread nD τ).loc main_arg2)) (funext fun a => Fin.ext ?_)
  match a with
  | ⟨0, _⟩ => show win0_2.index t 0 * 3200 + 1 * r.val = 3200 * t.val + r.val; rw [(index_facts t).2.2.2.2.1]; omega
  | ⟨1, _⟩ => show win0_2.index t 1 * 3 + 1 * k.val = k.val; rw [(index_facts t).2.2.2.2.2]; omega

/-- The labels' column as the call finds it: the host's reshape of the label vector. -/
theorem labels_column (c : Dev nD) :
    (V m c main_v0 : S4000000x1.Idx → BitVec 32)
      = shapeCast S4000000x1 (m ((c.tc : Thread nD τ).loc main_arg1)) shapeCasts_S4000000_S4000000x1 := by
  show StableHlo.after hostOps0 (fun b => m (c, b)) (Proc.devRef .tc main_v0) = _
  after_results
  rfl

/-- The labels' block at point t, row r, is the label of row 3200 t + r. -/
theorem labels_block (c : Dev nD) (t : Fin cfg0.N) (r : Fin 3200) (u : Fin 1) :
    (iblk m c 1 t : Vec F S3200x1 .i32) (ix2 r u)
      = m ((c.tc : Thread nD τ).loc main_arg1) (ix1 (rowOf (blockNo t) r)) := by
  unfold iblk
  rw [View.read_apply]
  show V m c main_v0 (((cfg0.win 1).blk t).view.emb (ix2 r u)) = _
  rw [labels_column]
  refine shapeCast_apply _ shapeCasts_S4000000_S4000000x1 _ (ix1 (rowOf (blockNo t) r)) ?_
  rw [Shape.rowMajor_val_one, Shape.rowMajor_val_two]
  show 3200 * t.val + r.val = (win0_1.index t 0 * 3200 + 1 * r.val) * 1 + (win0_1.index t 1 * 1 + 1 * u.val)
  rw [(index_facts t).2.2.1, (index_facts t).2.2.2.1]
  have := u.isLt
  omega

end Cert.KernelIdeal.Blocks

/-! ## What a grid point adds, at the ideal values -/

namespace Cert.KernelIdeal.Blocks

open Cert.KernelIdeal Cert.KernelIdeal.Gen Idealize.ShloMosaic Idealize.ShloMosaic.TcCoe Idealize.SL.Sem
open Idealize.ShloMosaic.ValueIdx Cert.Hinge Cert.KernelIdeal.BlockTotal
open scoped BigOperators

variable (m : (ℓ : Loc nD τ sig) → Buf (Elt Ideal) ℓ)

/-- The stored value of the body at point t over an accumulator xs: xs plus the loss's block sum number t. -/
theorem stored_at_point (c : Dev nD) (t : Fin cfg0.N) (xs : Vec Ideal S1x1 .f32) (y : S1x1.Idx) :
    k0_pay2 (F := Ideal) (iblk m c 0 t) (iblk m c 1 t) (iblk m c 2 t) xs y
      = xs y + blockLoss (m ((c.tc : Thread nD τ).loc main_arg0)) (m ((c.tc : Thread nD τ).loc main_arg1))
          (m ((c.tc : Thread nD τ).loc main_arg2)) (blockNo t) := by
  refine (pay2_apply (iblk m c 0 t) (iblk m c 1 t) (iblk m c 2 t) xs y).trans ?_
  refine congrArg (fun z : EReal => xs y + z) ?_
  refine Finset.sum_congr rfl fun r _ => Finset.sum_congr rfl fun j _ => ?_
  rw [logits_block m c t r j, labels_block m c t r (0 : Fin 1), listed_block m c t r 0, listed_block m c t r 1,
    listed_block m c t r 2]
  rfl

end Cert.KernelIdeal.Blocks

end
-- ==== Proof.Accumulate.lean ====
/-
  The accumulator, point by point.

  The frame run states what the carried scratch and the output's staging buffer hold after each grid point by
  recursion on the point, each case's contents being the pieces its run found. Read as values: after the first point
  the accumulator is the stored value of block 0 over the zero block; after every later point it is the stored value
  of that point's block over what the point before left; and after the last point the output's buffer holds the same
  value as the accumulator.

  At the ideal values the stored value is "old value plus the block's sum", so by induction on the point — never by
  listing the 1250 points — the accumulator after point n is the sum of the block sums 0, …, n. Nothing but
  0 + x = x and the associativity of + on the extended reals is used. After the last point it is the loss.
-/
import proofs.«168878_j41755672052619_1_alg».proof.Proof.Gen.KernelIdeal.Frame
import proofs.«168878_j41755672052619_1_alg».proof.Proof.Pieces
import proofs.«168878_j41755672052619_1_alg».proof.Proof.Blocks

noncomputable section

namespace Cert.KernelIdeal.Accumulate

open Cert.KernelIdeal Cert.KernelIdeal.Gen Idealize.ShloMosaic Idealize.ShloMosaic.TcCoe Idealize.SL.Sem
open Idealize.ShloMosaic.ValueIdx Cert.Hinge Cert.KernelIdeal.Blocks Cert.KernelIdeal.BlockTotal
open scoped BigOperators

/-! ## The recursion, as values (any float instance) -/

section Values

variable {F : FTy → Type} [FloatOps F]
variable (m : (ℓ : Loc nD τ sig) → Buf (Elt F) ℓ)

/-- After the first point the accumulator is the stored value of block 0 over the zero block. -/
theorem scratch_zero (c : Dev nD) (h : 0 < cfg0.N) :
    (outsAt0 m c 0 h).2 = k0_pay2 (iblk m c 0 ⟨0, h⟩) (iblk m c 1 ⟨0, h⟩) (iblk m c 2 ⟨0, h⟩) k0_pay1 :=
  (congrArg Prod.snd (outsAt0_A m c ⟨0, h⟩ rfl (by decide : ¬(0 : ℕ) % 1250 = 1249))).trans
    (Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _)
      ((hcond0_0 ⟨0, h⟩).mpr rfl) (fun hh => (by decide : ¬(0 : ℕ) % 1250 = 1249) ((hcond0_1 ⟨0, h⟩).mp hh))
      (iblk m c 0 ⟨0, h⟩) (iblk m c 1 ⟨0, h⟩) (iblk m c 2 ⟨0, h⟩))

/-- After a later point it is the stored value of that point's block over what the point before left. -/
theorem scratch_succ (c : Dev nD) (n : ℕ) (hn : n + 1 < cfg0.N) :
    (outsAt0 m c (n + 1) hn).2
      = k0_pay2 (iblk m c 0 ⟨n + 1, hn⟩) (iblk m c 1 ⟨n + 1, hn⟩) (iblk m c 2 ⟨n + 1, hn⟩) (outsAt0 m c n (Nat.lt_of_succ_lt hn)).2 := by
  have hN : cfg0.N = 1250 := N_0
  have h0 : ¬(n + 1) % 1250 = 0 := by omega
  by_cases h1 : (n + 1) % 1250 = 1249
  · exact (congrArg Prod.snd (outsAt0_C m c ⟨n + 1, hn⟩ h0 h1)).trans
      (Pieces.scratch_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
        (fun hh => h0 ((hcond0_0 ⟨n + 1, hn⟩).mp hh)) ((hcond0_1 ⟨n + 1, hn⟩).mpr h1)
        (iblk m c 0 ⟨n + 1, hn⟩) (iblk m c 1 ⟨n + 1, hn⟩) (iblk m c 2 ⟨n + 1, hn⟩) (outsAt0 m c n (Nat.lt_of_succ_lt hn)).2)
  · exact (congrArg Prod.snd (outsAt0_B m c ⟨n + 1, hn⟩ h0 h1)).trans
      (Pieces.scratch_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
        (fun hh => h0 ((hcond0_0 ⟨n + 1, hn⟩).mp hh)) (fun hh => h1 ((hcond0_1 ⟨n + 1, hn⟩).mp hh))
        (iblk m c 0 ⟨n + 1, hn⟩) (iblk m c 1 ⟨n + 1, hn⟩) (iblk m c 2 ⟨n + 1, hn⟩) (outsAt0 m c n (Nat.lt_of_succ_lt hn)).2)

/-- After the last point (the one whose number is 1249 modulo 1250) the output's staging buffer holds what the
    accumulator holds. -/
theorem output_eq_scratch (c : Dev nD) (n : ℕ) (hn : n + 1 < cfg0.N) (h1 : (n + 1) % 1250 = 1249) :
    (outsAt0 m c (n + 1) hn).1 = (outsAt0 m c (n + 1) hn).2 := by
  have h0 : ¬(n + 1) % 1250 = 0 := by omega
  exact ((congrArg Prod.fst (outsAt0_C m c ⟨n + 1, hn⟩ h0 h1)).trans
    (Pieces.output_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
      (fun hh => h0 ((hcond0_0 ⟨n + 1, hn⟩).mp hh)) ((hcond0_1 ⟨n + 1, hn⟩).mpr h1)
      (iblk m c 0 ⟨n + 1, hn⟩) (iblk m c 1 ⟨n + 1, hn⟩) (iblk m c 2 ⟨n + 1, hn⟩) (outsAt0 m c n (Nat.lt_of_succ_lt hn)).2)).trans
    (scratch_succ m c n hn).symm

end Values

/-! ## The accumulator at the ideal values -/

section Sums

variable (m : (ℓ : Loc nD τ sig) → Buf (Elt Ideal) ℓ)

/-- The loss's block sum number s of the launch arrays (zero past the last block). -/
def blockSum (c : Dev nD) (s : ℕ) : EReal :=
  if h : s < 1250 then
    blockLoss (m ((c.tc : Thread nD τ).loc main_arg0)) (m ((c.tc : Thread nD τ).loc main_arg1))
      (m ((c.tc : Thread nD τ).loc main_arg2)) ⟨s, h⟩
  else 0

/-- At a grid point it is the block sum of the point's block. -/
theorem blockSum_point (c : Dev nD) (t : Fin cfg0.N) :
    blockLoss (m ((c.tc : Thread nD τ).loc main_arg0)) (m ((c.tc : Thread nD τ).loc main_arg1))
      (m ((c.tc : Thread nD τ).loc main_arg2)) (blockNo t) = blockSum m c t.val := by
  unfold blockSum
  rw [dif_pos (show t.val < 1250 from (blockNo t).isLt)]
  rfl

/-- After point n the accumulator holds the sum of the block sums 0, …, n. -/
theorem scratch_value (c : Dev nD) : ∀ (n : ℕ) (hn : n < cfg0.N) (y : S1x1.Idx),
    (outsAt0 m c n hn).2 y = ∑ s ∈ Finset.range (n + 1), blockSum m c s
  | 0, hn, y => by
    rw [scratch_zero m c hn, stored_at_point m c ⟨0, hn⟩ (k0_pay1 (F := Ideal)) y, pay1_apply, zero_add,
      blockSum_point m c ⟨0, hn⟩, Finset.sum_range_succ, Finset.sum_range_zero, zero_add]
  | n + 1, hn, y => by
    rw [scratch_succ m c n hn, stored_at_point m c ⟨n + 1, hn⟩ _ y, scratch_value c n (Nat.lt_of_succ_lt hn) y,
      blockSum_point m c ⟨n + 1, hn⟩, Finset.sum_range_succ _ (n + 1)]

/-- The sum of all 1250 block sums is the loss. -/
theorem sum_blockSum (c : Dev nD) :
    ∑ s ∈ Finset.range 1250, blockSum m c s
      = loss (m ((c.tc : Thread nD τ).loc main_arg0)) (m ((c.tc : Thread nD τ).loc main_arg1))
          (m ((c.tc : Thread nD τ).loc main_arg2)) := by
  rw [loss_eq_sum_blocks, ← Fin.sum_univ_eq_sum_range]
  refine Finset.sum_congr rfl fun t _ => ?_
  unfold blockSum
  rw [dif_pos t.isLt]

/-- After the last point the accumulator, and with it the output's staging buffer, holds the loss: the point's number
    is 1249, so the block sums 0, …, 1249 are all 1250 of them. -/
theorem output_value (c : Dev nD) (n : ℕ) (hn : n + 1 < cfg0.N) (h1 : (n + 1) % 1250 = 1249) (y : S1x1.Idx) :
    (outsAt0 m c (n + 1) hn).1 y
      = loss (m ((c.tc : Thread nD τ).loc main_arg0)) (m ((c.tc : Thread nD τ).loc main_arg1))
          (m ((c.tc : Thread nD τ).loc main_arg2)) := by
  have hN : cfg0.N = 1250 := N_0
  have e : n + 1 + 1 = 1250 := by omega
  rw [output_eq_scratch m c n hn h1, scratch_value m c (n + 1) hn y, e]
  exact sum_blockSum m c

end Sums

end Cert.KernelIdeal.Accumulate

end
-- ==== Proof.OutputArray.lean ====
/-
  The output array after the run.

  The output is a one-element array whose block index never moves. It is written back once, after the last grid
  point, and what is written is the accumulator's value there: the loss. That one block is the whole array, so the
  array ends holding the loss.
-/
import proofs.«168878_j41755672052619_1_alg».proof.Proof.Gen.KernelIdeal.Frame
import proofs.«168878_j41755672052619_1_alg».proof.Proof.Accumulate
import Idealize.ShloMosaic.Lib.Pipeline.Value

noncomputable section

namespace Cert.KernelIdeal.OutputArray

open Cert.KernelIdeal Cert.KernelIdeal.Gen Idealize.ShloMosaic Idealize.ShloMosaic.TcCoe Idealize.SL.Sem
open Idealize.ShloMosaic.ValueIdx Cert.Hinge Cert.KernelIdeal.Accumulate
open Idealize.ShloMosaic.Pipeline (Dat)

variable (m : (ℓ : Loc nD τ sig) → Buf (Elt Ideal) ℓ)

/-- The last grid point is number 1249. -/
theorem last_lt : 1248 + 1 < cfg0.N := by rw [show cfg0.N = 1250 from N_0]; decide

/-- The output window's block index is (0, 0) at every point. -/
theorem out_index : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The one-element array holding the loss. -/
def lossCell (c : Dev nD) : Buf (Elt Ideal) ((c : Thread nD τ).loc main_v1) := fun _ => loss (m ((c.tc : Thread nD τ).loc main_arg0)) (m ((c.tc : Thread nD τ).loc main_arg1)) (m ((c.tc : Thread nD τ).loc main_arg2))

/-- At the last point (number 1249 modulo 1250) the output's staging buffer holds the loss. -/
theorem output_at (c : Dev nD) (t : Fin cfg0.N) (ht : t.val % 1250 = 1249) :
    (outsAt0 m c t.val t.isLt).1 = lossCell m c := by
  obtain ⟨n, hn⟩ := t
  cases n with
  | zero => exact absurd ht (by decide : ¬(0 : ℕ) % 1250 = 1249)
  | succ k => exact funext fun y => output_value m c k hn ht y

/-- The one write-back, after the last point, writes the loss: block (0, 0) of the [1, 1] array is the array. -/
theorem flushed_eq (c : Dev nD) (t : Fin cfg0.N) (hf : (cfg0.win 3).flush t = true) :
    (dats m 0 c).flushed 3 t = ((cfg0.win 3).blk t).view.read (Elt Ideal) (lossCell m c) := by
  have hN : cfg0.N = 1250 := N_0
  have h3 : t.val = 1248 + 1 := by have := (flush0_3 t).mp hf; have := t.isLt; omega
  show (cfg0.win 3).cut (grid0.coords t) ((dats m 0 c).after 3 t) = _
  rw [after0_3, output_at m c t ((flush0_3 t).mp hf)]
  obtain rfl : t = ⟨1248 + 1, last_lt⟩ := Fin.ext h3
  have hz' : (fun a => win0_3.index ⟨1248 + 1, last_lt⟩ a * main_v1.ty.shape.size a) = fun _ => 0 := funext fun a => by
    match a with
    | ⟨0, _⟩ => show win0_3.index ⟨1248 + 1, last_lt⟩ 0 * 1 = 0; rw [(out_index ⟨1248 + 1, last_lt⟩).1]
    | ⟨1, _⟩ => show win0_3.index ⟨1248 + 1, last_lt⟩ 1 * 1 = 0; rw [(out_index ⟨1248 + 1, last_lt⟩).2]
  exact (Memref.read_access_unit_zero (Elt Ideal) main_v1 hz' (fun a => by rw [congrFun hz' a]; simp) (lossCell m c)).symm

end Cert.KernelIdeal.OutputArray

end
-- ==== Proof.KernelValue.lean ====
/-
  The kernel's result.

  The output array is written back once, after the last grid point, with the loss; that block is the whole one-element
  array, so the array ends holding the loss. After the call the host reshapes the [1, 1] array to a scalar, which reads
  its one element. So every weakly fair execution of the idealized kernel terminates with its result at the loss of
  the launch arrays, and the argument arrays unchanged.
-/
import proofs.«168878_j41755672052619_1_alg».proof.Proof.Gen.KernelIdeal.Frame
import proofs.«168878_j41755672052619_1_alg».proof.Proof.OutputArray
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.Hinge Cert.KernelIdeal.OutputArray
open Idealize.ShloMosaic.Pipeline (Dat)

variable (m : (ℓ : Loc nD τ sig) → Buf (Elt Ideal) ℓ) (ρ : Dev nD → PrngReg)

/-- The output array ends holding the loss: the last point's block covers it. -/
theorem final_out (c : Dev nD) : (dats m 0 c).arrAt 3 cfg0.N = lossCell m c :=
  (dats m 0 c).arrAt_eq_of_cover 3 (lossCell m c) (flushed_eq m c) fun i =>
    ⟨⟨1248 + 1, last_lt⟩, (flush0_3 ⟨1248 + 1, last_lt⟩).mpr (by decide : (1248 + 1) % 1250 = 1249), by
      show i ∈ ((View.whole main_v1).slice (win0_3.rect ⟨1248 + 1, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨1248 + 1, last_lt⟩ 0 * win0_3.size 0 ≤ (i 0 : Nat) ∧ (i 0 : Nat) < win0_3.index ⟨1248 + 1, last_lt⟩ 0 * win0_3.size 0 + win0_3.xsize (grid0.coords ⟨1248 + 1, last_lt⟩) 0
        rw [(out_index ⟨1248 + 1, last_lt⟩).1, show win0_3.xsize (grid0.coords ⟨1248 + 1, last_lt⟩) 0 = 1 from by decide +kernel]; omega
      | ⟨1, _⟩ =>
        show win0_3.index ⟨1248 + 1, last_lt⟩ 1 * win0_3.size 1 ≤ (i 1 : Nat) ∧ (i 1 : Nat) < win0_3.index ⟨1248 + 1, last_lt⟩ 1 * win0_3.size 1 + win0_3.xsize (grid0.coords ⟨1248 + 1, last_lt⟩) 1
        rw [(out_index ⟨1248 + 1, last_lt⟩).2, show win0_3.xsize (grid0.coords ⟨1248 + 1, last_lt⟩) 1 = 1 from by decide +kernel]; omega⟩

/-- The host's reshape of the [1, 1] output to a scalar reads the loss. -/
theorem tail_value (c : Dev nD) :
    Pipeline.afterTail₀ cfgs (dats m) 0 (V0 m) [hostOps1] c main_v2 = fun _ => loss (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = lossCell m c :=
    (Pipeline.withArrays_arr spec0 launch0.win.arr_inj c _ _ 3).trans (final_out m c)
  funext i
  show shapeCast S_ (Pipeline.withArrays (cfgs 0).spec c (V0 m c) (fun w => (dats m 0 c).arrAt w (cfgs 0).N)
      (Proc.devRef .tc main_v1)) shapeCasts_S1x1_S_ i = _
  rw [e]
  rfl

/-- Every weakly fair execution of the idealized kernel terminates with its result at the loss of the launch arrays,
    and the argument arrays unchanged. -/
theorem run : θ_run defs (onTc (τ := τ) (main (F := Ideal))) ⟨m, fun _ => 0, ρ⟩ fun r => ∀ c : Dev nD,
      r.2.mem ((c.tc : Thread nD τ).loc main_v2)
          = (fun _ => loss (m ((c.tc : Thread nD τ).loc main_arg0)) (m ((c.tc : Thread nD τ).loc main_arg1)) (m ((c.tc : Thread nD τ).loc main_arg2)) : Buf (Elt Ideal) ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KernelValue

end
-- ==== Proof.RefRun.lean ====
/-
  The reference program's run, read back.

  Its @main is a straight line of 26 host operations (the three private functions it calls stand in line at their
  calls). Run from any memory, every weakly fair execution terminates with the result buffer at one composed term of
  the three argument arrays, and the arguments unchanged. The term is named here in four stages:

    listedMask  — for each row and lane, whether the lane's number is one of the row's three listed class numbers:
                  an "or" over the three comparisons;
    marginVec   — for each row, 1 when the label is 1 and 0 otherwise;
    gap         — logit minus the row's margin, the margin spread over the seven lanes;
    terms       — |gap| where the mask holds, max(gap, 0) elsewhere;

  and the result is the sum of `terms` over both axes, from zero.

  The two reductions are folds over tens of millions of elements and are never opened here: the readback rewrites each
  operation's result buffer to its function's value and ends on two identical terms.
-/
import proofs.«168878_j41755672052619_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- Row by lane: the lane's number is one of the row's three listed class numbers. -/
def listedMask (x2 : (⟨S4000000x3, .i32⟩ : BufTy).Contents (Elt F)) : (⟨S4000000x7, .i1⟩ : BufTy).Contents (Elt F) :=
  Host.reduce IntOp.ori
    (cmpi .eq
      (broadcastInDim S4000000x3x7 ![0, 1, 2] bcast_S4000000x3x1_S4000000x3x7_0_1_2
        (broadcastInDim S4000000x3x1 ![0, 1] bcast_S4000000x3_S4000000x3x1_0_1 x2))
      (broadcastInDim S4000000x3x7 ![0, 1, 2] bcast_S1x1x7_S4000000x3x7_0_1_2
        (broadcastInDim S1x1x7 ![2] bcast_S7_S1x1x7_2 (iotaInDim S7 32 0))))
    (constantI S_ 1 0#1) reducesTo_S4000000x3x7_S4000000x7_d1 h_S_

/-- Per row: 1 when the label is 1, else 0. -/
def marginVec (x1 : (⟨S4000000, .i32⟩ : BufTy).Contents (Elt F)) : (⟨S4000000, .f32⟩ : BufTy).Contents (Elt F) :=
  select (cmpi .eq x1 (broadcastInDim S4000000 ![] bcast_S_S4000000 (constantI S_ 32 1#32)))
    (broadcastInDim S4000000 ![] bcast_S_S4000000 (constant S_ .f32 0x3F800000#32))
    (broadcastInDim S4000000 ![] bcast_S_S4000000 (constant S_ .f32 0x00000000#32))

/-- Logit minus the row's margin. -/
def gap (x0 : (⟨S4000000x7, .f32⟩ : BufTy).Contents (Elt F)) (x1 : (⟨S4000000, .i32⟩ : BufTy).Contents (Elt F)) : (⟨S4000000x7, .f32⟩ : BufTy).Contents (Elt F) :=
  subf x0 (broadcastInDim S4000000x7 ![0, 1] bcast_S4000000x1_S4000000x7_0_1
    (broadcastInDim S4000000x1 ![0] bcast_S4000000_S4000000x1_0 (marginVec (F := F) x1)))

/-- The terms: |gap| on a listed lane, max(gap, 0) elsewhere. -/
def terms (x0 : (⟨S4000000x7, .f32⟩ : BufTy).Contents (Elt F)) (x1 : (⟨S4000000, .i32⟩ : BufTy).Contents (Elt F)) (x2 : (⟨S4000000x3, .i32⟩ : BufTy).Contents (Elt F)) :
    (⟨S4000000x7, .f32⟩ : BufTy).Contents (Elt F) :=
  select (listedMask (F := F) x2) (Host.absf (gap x0 x1))
    (maximumf (gap x0 x1) (broadcastInDim S4000000x7 ![] bcast_S_S4000000x7 (constant S_ .f32 0x00000000#32)))

/-- The result: the terms summed over both axes, from zero. -/
def result (x0 : (⟨S4000000x7, .f32⟩ : BufTy).Contents (Elt F)) (x1 : (⟨S4000000, .i32⟩ : BufTy).Contents (Elt F)) (x2 : (⟨S4000000x3, .i32⟩ : BufTy).Contents (Elt F)) :
    (⟨S_, .f32⟩ : BufTy).Contents (Elt F) :=
  Host.reduceAdd (terms x0 x1 x2) (constant S_ .f32 0x00000000#32) reducesTo_S4000000x7_S_d0_1 h_S_

/-! ## The program as its list of operations -/

/-- @main's 26 operations, in order; a called function's operations stand at its call, over the call's buffers. -/
abbrev ops : List (HloOp τ sig (Elt F)) :=
  [ unary main_arg2 main_v0 (broadcastInDim S4000000x3x1 ![0, 1] bcast_S4000000x3_S4000000x3x1_0_1 : (⟨S4000000x3, .i32⟩ : BufTy).Contents (Elt F) → (⟨S4000000x3x1, .i32⟩ : BufTy).Contents (Elt F)),
    nullary main_v1 (iotaInDim S7 32 0),
    unary main_v1 main_v2 (broadcastInDim S1x1x7 ![2] bcast_S7_S1x1x7_2 : (⟨S7, .i32⟩ : BufTy).Contents (Elt F) → (⟨S1x1x7, .i32⟩ : BufTy).Contents (Elt F)),
    unary main_v0 main_v3 (broadcastInDim S4000000x3x7 ![0, 1, 2] bcast_S4000000x3x1_S4000000x3x7_0_1_2 : (⟨S4000000x3x1, .i32⟩ : BufTy).Contents (Elt F) → (⟨S4000000x3x7, .i32⟩ : BufTy).Contents (Elt F)),
    unary main_v2 main_v4 (broadcastInDim S4000000x3x7 ![0, 1, 2] bcast_S1x1x7_S4000000x3x7_0_1_2 : (⟨S1x1x7, .i32⟩ : BufTy).Contents (Elt F) → (⟨S4000000x3x7, .i32⟩ : BufTy).Contents (Elt F)),
    binary main_v3 main_v4 main_v5 (cmpi .eq : (⟨S4000000x3x7, .i32⟩ : BufTy).Contents (Elt F) → (⟨S4000000x3x7, .i32⟩ : BufTy).Contents (Elt F) → (⟨S4000000x3x7, .i1⟩ : BufTy).Contents (Elt F)),
    nullary main_c (constantI S_ 1 0#1),
    binary main_v5 main_c main_v6 ((fun x v => Host.reduce IntOp.ori x v reducesTo_S4000000x3x7_S4000000x7_d1 h_S_) : (⟨S4000000x3x7, .i1⟩ : BufTy).Contents (Elt F) → (⟨S_, .i1⟩ : BufTy).Contents (Elt F) → (⟨S4000000x7, .i1⟩ : BufTy).Contents (Elt F)),
    nullary main_c_0 (constantI S_ 32 1#32),
    unary main_c_0 main_v7 (broadcastInDim S4000000 ![] bcast_S_S4000000 : (⟨S_, .i32⟩ : BufTy).Contents (Elt F) → (⟨S4000000, .i32⟩ : BufTy).Contents (Elt F)),
    binary main_arg1 main_v7 main_v8 (cmpi .eq : (⟨S4000000, .i32⟩ : BufTy).Contents (Elt F) → (⟨S4000000, .i32⟩ : BufTy).Contents (Elt F) → (⟨S4000000, .i1⟩ : BufTy).Contents (Elt F)),
    nullary main_cst (constant S_ .f32 0x3F800000#32),
    nullary main_cst_1 (constant S_ .f32 0x00000000#32),
    unary main_cst main_call0_v0 (broadcastInDim S4000000 ![] bcast_S_S4000000 : (⟨S_, .f32⟩ : BufTy).Contents (Elt F) → (⟨S4000000, .f32⟩ : BufTy).Contents (Elt F)),
    unary main_cst_1 main_call0_v1 (broadcastInDim S4000000 ![] bcast_S_S4000000 : (⟨S_, .f32⟩ : BufTy).Contents (Elt F) → (⟨S4000000, .f32⟩ : BufTy).Contents (Elt F)),
    ternary main_v8 main_call0_v0 main_call0_v1 main_v9 (select : (⟨S4000000, .i1⟩ : BufTy).Contents (Elt F) → (⟨S4000000, .f32⟩ : BufTy).Contents (Elt F) → (⟨S4000000, .f32⟩ : BufTy).Contents (Elt F) → (⟨S4000000, .f32⟩ : BufTy).Contents (Elt F)),
    unary main_v9 main_v10 (broadcastInDim S4000000x1 ![0] bcast_S4000000_S4000000x1_0 : (⟨S4000000, .f32⟩ : BufTy).Contents (Elt F) → (⟨S4000000x1, .f32⟩ : BufTy).Contents (Elt F)),
    unary main_v10 main_v11 (broadcastInDim S4000000x7 ![0, 1] bcast_S4000000x1_S4000000x7_0_1 : (⟨S4000000x1, .f32⟩ : BufTy).Contents (Elt F) → (⟨S4000000x7, .f32⟩ : BufTy).Contents (Elt F)),
    binary main_arg0 main_v11 main_v12 (subf : (⟨S4000000x7, .f32⟩ : BufTy).Contents (Elt F) → (⟨S4000000x7, .f32⟩ : BufTy).Contents (Elt F) → (⟨S4000000x7, .f32⟩ : BufTy).Contents (Elt F)),
    unary main_v12 main_v13 (Host.absf : (⟨S4000000x7, .f32⟩ : BufTy).Contents (Elt F) → (⟨S4000000x7, .f32⟩ : BufTy).Contents (Elt F)),
    nullary main_call1_cst (constant S_ .f32 0x00000000#32),
    unary main_call1_cst main_call1_v0 (broadcastInDim S4000000x7 ![] bcast_S_S4000000x7 : (⟨S_, .f32⟩ : BufTy).Contents (Elt F) → (⟨S4000000x7, .f32⟩ : BufTy).Contents (Elt F)),
    binary main_v12 main_call1_v0 main_v14 (maximumf : (⟨S4000000x7, .f32⟩ : BufTy).Contents (Elt F) → (⟨S4000000x7, .f32⟩ : BufTy).Contents (Elt F) → (⟨S4000000x7, .f32⟩ : BufTy).Contents (Elt F)),
    ternary main_v6 main_v13 main_v14 main_v15 (select : (⟨S4000000x7, .i1⟩ : BufTy).Contents (Elt F) → (⟨S4000000x7, .f32⟩ : BufTy).Contents (Elt F) → (⟨S4000000x7, .f32⟩ : BufTy).Contents (Elt F) → (⟨S4000000x7, .f32⟩ : BufTy).Contents (Elt F)),
    nullary main_cst_2 (constant S_ .f32 0x00000000#32),
    binary main_v15 main_cst_2 main_v16 ((fun x v => Host.reduceAdd x v reducesTo_S4000000x7_S_d0_1 h_S_) : (⟨S4000000x7, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., unary_bufs_sub .., unary_bufs_sub .., binary_bufs_sub .., nullary_bufs_sub .., binary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., nullary_bufs_sub .., unary_bufs_sub .., binary_bufs_sub .., ternary_bufs_sub .., nullary_bufs_sub .., binary_bufs_sub ..⟩

/-! ## What the buffers hold after the operations -/

/-- After the 26 operations, over any contents `V`, the result buffer holds `result` of `V` at the three arguments. -/
theorem result_eq (V : Valuation τ sig (Elt F)) :
    after ops V (Proc.devRef .tc main_v16)
      = result (V (Proc.devRef .tc main_arg0)) (V (Proc.devRef .tc main_arg1)) (V (Proc.devRef .tc main_arg2)) := by
  unfold result terms gap marginVec listedMask
  after_results

/-- No operation writes an argument. -/
theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results

/-- On every device, for any float values, from any memory with zero counters: every weakly fair execution of @main
    terminates with the result at `result` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (result_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.RefRead.lean ====
/-
  The reference's result, read: at the ideal values it is the loss.

  Index by index. A scalar spread over an array reads the scalar. The listed class numbers, spread over the seven
  lanes, read at (row R, slot k, lane j) the number in slot k of row R; the lane numbers 0..6, spread over rows and
  slots, read there j. The "or" over the three slots of the comparisons is therefore "lane j is one of row R's three
  listed numbers". The margin vector, made a column and spread over the lanes, reads at (R, j) the margin of row R.
  So the array of terms at (R, j) is the loss's term of row R and lane j, and the sum of that array over both axes,
  from zero, is the loss. (On the host "abs" and on the kernel "absf" are one function of an extended real.)
-/
import proofs.«168878_j41755672052619_1_alg».proof.Proof.RefRun
import proofs.«168878_j41755672052619_1_alg».proof.Proof.HingeTerm
import Idealize.ShloMosaic.Lib.Pipeline.Value
import Idealize.ShloMosaic.PureOps.Ideal.Laws
import Idealize.ShloMosaic.PureOps.Reduce

noncomputable section

namespace Cert.ReferenceIdeal.RefRead

open Cert.ReferenceIdeal Cert.ReferenceIdeal.Gen Cert.ReferenceIdeal.RefRun Idealize.ShloMosaic Idealize.ShloMosaic.ValueIdx Cert.Hinge
open scoped BigOperators

variable {F : FTy → Type} [FloatOps F] {α : Type}

/-! ## Layout operations at an index -/

/-- A scalar spread over any shape reads, everywhere, the scalar. -/
theorem spread_scalar_apply {t : Shape} {dims : Fin (⟨0, ![]⟩ : Shape).rank → Fin t.rank}
    (h : (⟨0, ![]⟩ : Shape).BroadcastsInDim t dims) (x : (⟨0, ![]⟩ : Shape).Idx → α) (i : t.Idx) :
    broadcastInDim t dims h x i = x ix0 :=
  broadcastInDim_apply dims h x i ix0 (fun a => a.elim0)

/-- The [4000000, 3] array given a unit third axis and spread over seven lanes reads, at (R, k, j), the array at (R, k). -/
theorem spread_slots_apply (x : S4000000x3.Idx → α) (R : Fin 4000000) (k : Fin 3) (j : Fin 7) :
    broadcastInDim S4000000x3x7 ![0, 1, 2] bcast_S4000000x3x1_S4000000x3x7_0_1_2
        (broadcastInDim S4000000x3x1 ![0, 1] bcast_S4000000x3_S4000000x3x1_0_1 x) (ix3 R k j) = x (ix2 R k) :=
  (broadcastInDim_apply _ bcast_S4000000x3x1_S4000000x3x7_0_1_2 _ (ix3 R k j) (ix3 R k (0 : Fin 1)) (fun a => match a with
    | ⟨0, _⟩ => by show R.val = if (4000000 : Nat) = 1 then 0 else R.val; rw [if_neg (by decide)]
    | ⟨1, _⟩ => by show k.val = if (3 : Nat) = 1 then 0 else k.val; rw [if_neg (by decide)]
    | ⟨2, _⟩ => by show (0 : Nat) = if (1 : Nat) = 1 then 0 else j.val; rw [if_pos rfl])).trans
  (broadcastInDim_apply _ bcast_S4000000x3_S4000000x3x1_0_1 x (ix3 R k (0 : Fin 1)) (ix2 R k) (fun a => match a with
    | ⟨0, _⟩ => by show R.val = if (4000000 : Nat) = 1 then 0 else R.val; rw [if_neg (by decide)]
    | ⟨1, _⟩ => by show k.val = if (3 : Nat) = 1 then 0 else k.val; rw [if_neg (by decide)]))

/-- The lane numbers 0..6 spread over rows and slots read, at (R, k, j), the number j. -/
theorem spread_lanes_apply (R : Fin 4000000) (k : Fin 3) (j : Fin 7) :
    broadcastInDim S4000000x3x7 ![0, 1, 2] bcast_S1x1x7_S4000000x3x7_0_1_2
        (broadcastInDim S1x1x7 ![2] bcast_S7_S1x1x7_2 (iotaInDim S7 32 0)) (ix3 R k j) = BitVec.ofNat 32 j.val :=
  (broadcastInDim_apply _ bcast_S1x1x7_S4000000x3x7_0_1_2 _ (ix3 R k j) (ix3 (0 : Fin 1) (0 : Fin 1) j) (fun a => match a with
    | ⟨0, _⟩ => by show (0 : Nat) = if (1 : Nat) = 1 then 0 else R.val; rw [if_pos rfl]
    | ⟨1, _⟩ => by show (0 : Nat) = if (1 : Nat) = 1 then 0 else k.val; rw [if_pos rfl]
    | ⟨2, _⟩ => by show j.val = if (7 : Nat) = 1 then 0 else j.val; rw [if_neg (by decide)])).trans
  ((broadcastInDim_apply _ bcast_S7_S1x1x7_2 (iotaInDim S7 32 0) (ix3 (0 : Fin 1) (0 : Fin 1) j) (ix1 j) (fun a => match a with
    | ⟨0, _⟩ => by show j.val = if (7 : Nat) = 1 then 0 else j.val; rw [if_neg (by decide)])).trans rfl)

/-- A [4000000] vector made a column and spread over seven lanes reads, at (R, j), the vector at R. -/
theorem spread_rows_apply (v : S4000000.Idx → α) (R : Fin 4000000) (j : Fin 7) :
    broadcastInDim S4000000x7 ![0, 1] bcast_S4000000x1_S4000000x7_0_1
        (broadcastInDim S4000000x1 ![0] bcast_S4000000_S4000000x1_0 v) (ix2 R j) = v (ix1 R) :=
  (broadcastInDim_apply _ bcast_S4000000x1_S4000000x7_0_1 _ (ix2 R j) (ix2 R (0 : Fin 1)) (fun a => match a with
    | ⟨0, _⟩ => by show R.val = if (4000000 : Nat) = 1 then 0 else R.val; rw [if_neg (by decide)]
    | ⟨1, _⟩ => by show (0 : Nat) = if (1 : Nat) = 1 then 0 else j.val; rw [if_pos rfl])).trans
  (broadcastInDim_apply _ bcast_S4000000_S4000000x1_0 v (ix2 R (0 : Fin 1)) (ix1 R) (fun a => match a with
    | ⟨0, _⟩ => by show R.val = if (4000000 : Nat) = 1 then 0 else R.val; rw [if_neg (by decide)]))

/-! ## The "or" over three slots -/

/-- An "or" folded from zero over three one-bit words is the "or" of the three. -/
theorem fold_ori_three (z : BitVec 1) (hz : z = 0#1) (f : Fin 3 → BitVec 1) :
    (Finset.univ : Finset (Fin 3)).fold IntOp.ori z f = IntOp.ori (IntOp.ori (f 0) (f 1)) (f 2) := by
  subst hz
  rw [show (Finset.univ : Finset (Fin 3)) = {0, 1, 2} from by decide]
  rw [Finset.fold_insert (by decide), Finset.fold_insert (by decide), Finset.fold_singleton]
  simp only [IntOp.ori, BitVec.or_zero, BitVec.or_assoc]

/-- The axis-1 reduction of [4000000, 3, 7] to [4000000, 7], as the fact the library's fold lemma asks for. -/
theorem reduces_slots : S4000000x3x7.Reduces [1] S4000000x7 := by decide

/-- Slot k put back between row R and lane j is (R, k, j). -/
theorem lift_slot (R : Fin 4000000) (j : Fin 7) (k : Fin 3) : reduces_slots.lift (ix2 R j) k = ix3 R k j :=
  funext fun a => match a with
    | ⟨0, _⟩ => Fin.ext rfl
    | ⟨1, _⟩ => Fin.ext rfl
    | ⟨2, _⟩ => Fin.ext rfl

/-! ## The stages at an index -/

/-- The comparison in slot k, read where the "or" reads it: row R's k-th listed number against the lane's number j. -/
theorem slot_compare_apply (x2 : S4000000x3.Idx → BitVec 32) (R : Fin 4000000) (j : Fin 7) (k : Fin 3) :
    cmpi .eq
        (broadcastInDim S4000000x3x7 ![0, 1, 2] bcast_S4000000x3x1_S4000000x3x7_0_1_2
          (broadcastInDim S4000000x3x1 ![0, 1] bcast_S4000000x3_S4000000x3x1_0_1 x2))
        (broadcastInDim S4000000x3x7 ![0, 1, 2] bcast_S1x1x7_S4000000x3x7_0_1_2
          (broadcastInDim S1x1x7 ![2] bcast_S7_S1x1x7_2 (iotaInDim S7 32 0)))
        (reduces_slots.lift (ix2 R j) k)
      = IntOp.cmpi .eq (x2 (ix2 R k)) (BitVec.ofNat 32 j.val) :=
  (congrArg (cmpi .eq
        (broadcastInDim S4000000x3x7 ![0, 1, 2] bcast_S4000000x3x1_S4000000x3x7_0_1_2
          (broadcastInDim S4000000x3x1 ![0, 1] bcast_S4000000x3_S4000000x3x1_0_1 x2))
        (broadcastInDim S4000000x3x7 ![0, 1, 2] bcast_S1x1x7_S4000000x3x7_0_1_2
          (broadcastInDim S1x1x7 ![2] bcast_S7_S1x1x7_2 (iotaInDim S7 32 0)))) (lift_slot R j k)).trans
    (congrArg₂ (IntOp.cmpi .eq) (spread_slots_apply x2 R k j) (spread_lanes_apply R k j))

/-- The mask at (R, j): lane j is one of row R's three listed class numbers. -/
theorem listedMask_apply (x2 : S4000000x3.Idx → BitVec 32) (R : Fin 4000000) (j : Fin 7) :
    listedMask (F := F) x2 (ix2 R j) = listed (x2 (ix2 R 0)) (x2 (ix2 R 1)) (x2 (ix2 R 2)) (BitVec.ofNat 32 j.val) := by
  unfold listedMask
  refine (Host.reduce_eq_fold_single IntOp.ori _ _ reducesTo_S4000000x3x7_S4000000x7_d1 reduces_slots h_S_ (ix2 R j)).trans ?_
  refine (fold_ori_three (constantI S_ 1 0#1 (Shape.Idx.first h_S_)) rfl _).trans ?_
  exact congrArg₂ IntOp.ori
    (congrArg₂ IntOp.ori (slot_compare_apply x2 R j 0) (slot_compare_apply x2 R j 1)) (slot_compare_apply x2 R j 2)

/-- The margin vector at row R is the row's margin. -/
theorem marginVec_apply (x1 : S4000000.Idx → BitVec 32) (R : Fin 4000000) :
    marginVec (F := F) x1 (ix1 R) = margin (x1 (ix1 R)) := by
  unfold marginVec margin
  show Scalar.select (IntOp.cmpi .eq (x1 (ix1 R)) (broadcastInDim S4000000 ![] bcast_S_S4000000 (constantI S_ 32 1#32) (ix1 R)))
      (broadcastInDim S4000000 ![] bcast_S_S4000000 (constant S_ .f32 0x3F800000#32) (ix1 R))
      (broadcastInDim S4000000 ![] bcast_S_S4000000 (constant S_ .f32 0x00000000#32) (ix1 R)) = _
  rw [spread_scalar_apply, spread_scalar_apply, spread_scalar_apply]
  rfl

/-- The array of terms at (R, j), at the ideal values, is the loss's term of row R and lane j. -/
theorem terms_apply (x0 : Logits) (x1 : Labels) (x2 : Listed) (R : Fin 4000000) (j : Fin 7) :
    terms (F := Ideal) x0 x1 x2 (ix2 R j) = termAt x0 x1 x2 R j := by
  unfold terms gap termAt term
  show Scalar.select (listedMask (F := Ideal) x2 (ix2 R j))
      (FloatOps.hostAbsf (FloatOps.subf (x0 (ix2 R j)) (broadcastInDim S4000000x7 ![0, 1] bcast_S4000000x1_S4000000x7_0_1
        (broadcastInDim S4000000x1 ![0] bcast_S4000000_S4000000x1_0 (marginVec (F := Ideal) x1)) (ix2 R j))))
      (FloatOps.maximumf (FloatOps.subf (x0 (ix2 R j)) (broadcastInDim S4000000x7 ![0, 1] bcast_S4000000x1_S4000000x7_0_1
        (broadcastInDim S4000000x1 ![0] bcast_S4000000_S4000000x1_0 (marginVec (F := Ideal) x1)) (ix2 R j)))
        (broadcastInDim S4000000x7 ![] bcast_S_S4000000x7 (constant S_ .f32 0x00000000#32) (ix2 R j))) = _
  rw [listedMask_apply, spread_rows_apply, marginVec_apply, spread_scalar_apply]
  rfl

/-- The reference's result, at the ideal values, is the loss. -/
theorem result_apply (x0 : Logits) (x1 : Labels) (x2 : Listed) (i : S_.Idx) :
    result (F := Ideal) x0 x1 x2 i = loss x0 x1 x2 := by
  unfold result
  have e : ∀ y0 : S4000000x7.Idx → Ideal .f32,
      Host.reduceAdd (F := Ideal) y0 (constant S_ .f32 0x00000000#32) reducesTo_S4000000x7_S_d0_1 h_S_ i
        = Ideal.ofBits .f32 0x00000000#32 + ∑ p : S4000000x7.Idx, y0 p := fun y0 => by
    simp only [Host.reduceAdd, Ideal.hostReduceAdd_def]
    exact Ideal.hostReduceAdd_total reducesTo_S4000000x7_S_d0_1 (fun b => b.elim0) y0 _ i
  rw [e, Ideal.ofBits_zero_f32, zero_add, sum_idx2]
  exact Finset.sum_congr rfl fun R _ => Finset.sum_congr rfl fun j _ => terms_apply x0 x1 x2 R j

end Cert.ReferenceIdeal.RefRead

end
-- ==== Proof.lean ====
/-
  The kernel computes the reference's loss.

  The loss. A batch of 4 000 000 rows; each row has seven logits, a label, and three listed class numbers. The row's
  margin is 1 when its label is 1 and 0 otherwise. For lane j let d = logit(j) - margin; the term is |d| when j is
  one of the row's three listed numbers and max(d, 0) otherwise. The loss is the sum of the terms over all rows and
  lanes (Proof/HingeTerm.lean).

  The reference forms the whole [4000000, 7] array of terms — the membership test as an "or" over the three listed
  numbers compared with the lane numbers — and sums it over both axes from zero. Its run is read back operation by
  operation (Proof/RefRun.lean), and read at an index the array of terms is the loss's term, so the result is the loss
  (Proof/RefRead.lean).

  The kernel walks the batch in 1250 blocks of 3200 rows. At each grid point it forms the block's terms the same way
  (the three listed columns and the margin column spread over the lanes), sums each row over its lanes and then the
  row sums, and adds the total to a one-element accumulator that it zeroes at the first point; after the last point it
  copies the accumulator to the one-element output, which the host then reshapes to a scalar. At the ideal values one
  point adds the loss's sum over that block (Proof/BlockTotal.lean, Proof/Blocks.lean: row r of block t is row
  3200 t + r). What each case of the body leaves in the accumulator and the output is read off the generated frame
  run's pieces (Proof/Pieces.lean), and by induction on the grid point the accumulator after point n is the sum of
  the block sums 0..n (Proof/Accumulate.lean). The last point's write-back covers the one-element output array
  (Proof/KernelValue.lean).

  The two results are equal because a sum over 4 000 000 rows is the sum over 1250 consecutive blocks of 3200 rows of
  the sums inside the blocks — commutativity and associativity of addition on the extended reals, with 0 + x = x for
  the zero initial values. No term is cancelled or distributed, so the precondition (finite logits) is never used.

  The three frames: the kernel's two are the generated frame certificates; the reference's is its run with the result
  forgotten. The idealization rewrote nothing, so its preservation claim is trivial.
-/
import proofs.«168878_j41755672052619_1_alg».proof.Defs
import proofs.«168878_j41755672052619_1_alg».proof.Proof.Gen.Kernel
import proofs.«168878_j41755672052619_1_alg».proof.Proof.Gen.Kernel.Skeleton
import proofs.«168878_j41755672052619_1_alg».proof.Proof.Gen.Kernel.Launch
import proofs.«168878_j41755672052619_1_alg».proof.Proof.Gen.Kernel.Points
import proofs.«168878_j41755672052619_1_alg».proof.Proof.Gen.Kernel.Frame
import proofs.«168878_j41755672052619_1_alg».proof.Proof.Gen.KernelIdeal
import proofs.«168878_j41755672052619_1_alg».proof.Proof.Gen.KernelIdeal.Skeleton
import proofs.«168878_j41755672052619_1_alg».proof.Proof.Gen.KernelIdeal.Launch
import proofs.«168878_j41755672052619_1_alg».proof.Proof.Gen.KernelIdeal.Points
import proofs.«168878_j41755672052619_1_alg».proof.Proof.Gen.KernelIdeal.Frame
import proofs.«168878_j41755672052619_1_alg».proof.Proof.Gen.ReferenceIdeal
import proofs.«168878_j41755672052619_1_alg».proof.Proof.Gen.Pre_finite_inputs
import proofs.«168878_j41755672052619_1_alg».proof.Proof.KernelValue
import proofs.«168878_j41755672052619_1_alg».proof.Proof.RefRun
import proofs.«168878_j41755672052619_1_alg».proof.Proof.RefRead
import Idealize.ShloMosaic.Adequacy
import Idealize.ShloMosaic.Init

noncomputable section

namespace Cert.Proof

open Idealize.ShloMosaic Idealize.SL.Sem

/-- The word-level kernel runs and leaves its arguments unchanged: the generated frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal values both programs end with the loss of the (agreeing) argument arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact funext fun i => Cert.ReferenceIdeal.RefRead.result_apply _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
